-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S3x1088 : Shape := ⟨2, ![3, 1088]⟩
abbrev S3 : Shape := ⟨1, ![3]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S3x1088 : S_.BroadcastsInDim S3x1088 (![] : Fin 0 → Fin S3x1088.rank)
  reducesTo_S3x1088_S_d0_1 : S3x1088.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S65536x64 .f32) (main_arg1 : FVec F S1024x64 .f32) (main_arg2 : FVec F S3x1088 .f32) (main_arg3 : FVec F S3 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S3x1088 .f32 := Host.absf main_arg2
  let main_cst_2 : FVec F S_ .f32 := constant S_ .f32 0x7F800000#32
  let main_v10 : FVec F S3x1088 .f32 := broadcastInDim S3x1088 ![] bcast_S_S3x1088 main_cst_2
  let main_v11 : IVec S3x1088 1 := cmpf .olt main_v9 main_v10
  let main_c_3 : IVec S_ 1 := constantI S_ 1 1#1
  let main_v12 : IVec S_ 1 := (fun x v => Host.reduce IntOp.andi x v reducesTo_S3x1088_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S65536x64 : Shape := ⟨2, ![65536, 64]⟩
abbrev S1024x64 : Shape := ⟨2, ![1024, 64]⟩
abbrev S3x1088 : Shape := ⟨2, ![3, 1088]⟩
abbrev S3 : Shape := ⟨1, ![3]⟩
abbrev S65536x3 : Shape := ⟨2, ![65536, 3]⟩
abbrev S1024x3 : Shape := ⟨2, ![1024, 3]⟩
abbrev S3x64 : Shape := ⟨2, ![3, 64]⟩
abbrev S3x1024 : Shape := ⟨2, ![3, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S64x3 : Shape := ⟨2, ![64, 3]⟩
abbrev S1x3 : Shape := ⟨2, ![1, 3]⟩

abbrev nBuf : Space → Nat
  | .hbm => 8
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S3x1088, .f32⟩
  | .hbm, ⟨3, _⟩ => ⟨S3, .f32⟩
  | .hbm, ⟨4, _⟩ => ⟨S65536x3, .f32⟩
  | .hbm, ⟨5, _⟩ => ⟨S1x3, .f32⟩
  | .hbm, ⟨6, _⟩ => ⟨S65536x3, .f32⟩
  | .hbm, ⟨7, _⟩ => ⟨S65536x3, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S3x1088, .f32⟩
  | .local _ .vmem, ⟨4, _⟩ => ⟨S1024x3, .f32⟩
  | .local _ .vmem, ⟨5, _⟩ => ⟨S1024x3, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1088 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S3x1088_S3x1088_0_0 : ∀ a, (![0, 0] : Fin 2 → Nat) a + S3x1088.size a ≤ S3x1088.size a
  h_S3x1088 : 0 < S3x1088.numel
  slices_S3x1088_o0_0_S3x64 : S3x1088.Slices ![0, 0] S3x64
  slices_S3x1088_o0_64_S3x1024 : S3x1088.Slices ![0, 64] S3x1024
  bitsLt_bf16_f32 : FTy.bits .bf16 < FTy.bits .f32
  transposes_S1024x64_p1_0_S64x1024 : S1024x64.Transposes [1, 0] S64x1024
  reduces_S1024x64_S1024 : S1024x64.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  transposes_S3x64_p1_0_S64x3 : S3x64.Transposes [1, 0] S64x3
  transposes_S3x1024_p1_0_S1024x3 : S3x1024.Transposes [1, 0] S1024x3
  inb_S1024x3_S1024x3_0_0 : ∀ a, (![0, 0] : Fin 2 → Nat) a + S1024x3.size a ≤ S1024x3.size a
  h_S1024x3 : 0 < S1024x3.numel
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  dot_S1024x64_S64x1024_S1024x1024_1_0_0_1_n_n_wf : DotDims.WF S1024x64 S64x1024 S1024x1024 [1] [0] [0] [1] [] []
  dot_S1024x64_S64x3_S1024x3_1_0_0_1_n_n_wf : DotDims.WF S1024x64 S64x3 S1024x3 [1] [0] [0] [1] [] []
  dot_S1024x1024_S1024x3_S1024x3_1_0_0_1_n_n_wf : DotDims.WF S1024x1024 S1024x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1088.size a ≤ S3x1088.size a
  hwx0_2 : ∀ i : grid0.Coords, EltTy.bits .f32 = 32 ∨ (Rect.block (s := S3x1088) S3x1088.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S65536x3.size a
  hwx0_3 : ∀ i : grid0.Coords, EltTy.bits .f32 = 32 ∨ (Rect.block (s := S65536x3) S1024x3.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1088.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S3x1088 : Shape := ⟨2, ![3, 1088]⟩
abbrev S3 : Shape := ⟨1, ![3]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩
abbrev S65536x1088 : Shape := ⟨2, ![65536, 1088]⟩
abbrev S1088x3 : Shape := ⟨2, ![1088, 3]⟩
abbrev S65536x3 : Shape := ⟨2, ![65536, 3]⟩
abbrev S1x3 : Shape := ⟨2, ![1, 3]⟩

abbrev nBuf : Space → Nat
  | .hbm => 31
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S3x1088, .f32⟩
  | .hbm, ⟨3, _⟩ => ⟨S3, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S64x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1088, .f32⟩
  | .hbm, ⟨26, _⟩ => ⟨S1088x3, .f32⟩
  | .hbm, ⟨27, _⟩ => ⟨S65536x3, .f32⟩
  | .hbm, ⟨28, _⟩ => ⟨S1x3, .f32⟩
  | .hbm, ⟨29, _⟩ => ⟨S65536x3, .f32⟩
  | .hbm, ⟨30, _⟩ => ⟨S65536x3, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  concatenates_S65536x64_S65536x1024_S65536x1088_d1 : Shape.Concatenates [S65536x64, S65536x1024] S65536x1088 1
  transposes_S3x1088_S1088x3_1_0 : S3x1088.Transposes [1, 0] S1088x3
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  dot_S65536x64_S64x1024_S65536x1024_1_0_0_1_n_n_wf : DotDims.WF S65536x64 S64x1024 S65536x1024 [1] [0] [0] [1] [] []
  dot_S65536x1088_S1088x3_S65536x3_1_0_0_1_n_n_wf : DotDims.WF S65536x1088 S1088x3 S65536x3 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1088_S1088x3_S65536x3_1_0_0_1_n_n : DotDims S65536x1088 S1088x3 S65536x3 where
  lhsContracting := [1]
  rhsContracting := [0]
  lhsNonContracting := [0]
  rhsNonContracting := [1]
  lhsBatch := []
  rhsBatch := []
  wf := dot_S65536x1088_S1088x3_S65536x3_1_0_0_1_n_n_wf

class Facts : Prop extends Facts₀ where

variable [Facts]
-- ==== Proof.RbfSpec.lean ====
/-
  The radial-basis network, as one function of its four argument arrays on the extended reals.

  For a data row `x` (64 numbers) and a centre row `c` (64 numbers) the Gaussian feature is
  `exp (-10 · ((Σ x² + Σ c²) − 2 · Σ x·c))`: the squared distance is spelt in its expanded form, never as
  `Σ (x − c)²`. The network's output for data row `n` and output unit `j` is the weight row `W[j, ·]` (1088 numbers)
  applied to the data row followed by its 1024 features, plus the bias:
  `(Σ_{k<64} x[n,k] · W[j,k]) + (Σ_{m<1024} feature(n,m) · W[j,64+m]) + b[j]`.

  One law is needed to meet a program that forms the 1088-long row first and contracts it at once: a sum over
  1088 positions is the sum over the first 64 plus the sum over the remaining 1024 (`sum_split`). It uses only that
  addition of extended reals is commutative and associative, so no finiteness of the inputs enters.
-/
import Idealize.ShloMosaic.Lib.ValueIdx
import Idealize.ShloMosaic.PureOps.Ideal.Laws

noncomputable section

namespace Cert.Rbfn

open Idealize.ShloMosaic Idealize.ShloMosaic.ValueIdx

/-- The Gaussian feature of a data row against a centre row: `exp (-10 · ((|x|² + |c|²) − 2 · x·c))`, the two
    literals kept as the words the programs carry. -/
def feature (xrow crow : Fin 64 → EReal) : EReal :=
  Ideal.exp (Ideal.ofBits .f32 0xC1200000#32 *
    (((∑ k : Fin 64, xrow k * xrow k) + (∑ k : Fin 64, crow k * crow k))
      - Ideal.ofBits .f32 0x40000000#32 * ∑ k : Fin 64, xrow k * crow k))

/-- A weight row applied to a data row followed by the row's 1024 features: the first 64 weights meet the data, the
    weight at position `64 + m` meets the feature against centre `m`. -/
def project (xrow : Fin 64 → EReal) (c : FVec Ideal ⟨2, ![1024, 64]⟩ .f32) (wrow : Fin 1088 → EReal) : EReal :=
  (∑ k : Fin 64, xrow k * wrow ⟨k.val, by omega⟩)
    + ∑ m : Fin 1024, feature xrow (fun k => c (ix2 m k)) * wrow ⟨64 + m.val, by omega⟩

/-- The network's output at data row `n` and output unit `j`, before the bias. -/
def unitAt (x : FVec Ideal ⟨2, ![65536, 64]⟩ .f32) (c : FVec Ideal ⟨2, ![1024, 64]⟩ .f32)
    (W : FVec Ideal ⟨2, ![3, 1088]⟩ .f32) (n : Fin 65536) (j : Fin 3) : EReal :=
  project (fun k => x (ix2 n k)) c (fun q => W (ix2 j q))

/-- The projection of every data row, as an array `[65536, 3]`. -/
def units (x : FVec Ideal ⟨2, ![65536, 64]⟩ .f32) (c : FVec Ideal ⟨2, ![1024, 64]⟩ .f32)
    (W : FVec Ideal ⟨2, ![3, 1088]⟩ .f32) : FVec Ideal ⟨2, ![65536, 3]⟩ .f32 :=
  fun i => unitAt x c W (i 0) (i 1)

theorem units_ix2 (x : FVec Ideal ⟨2, ![65536, 64]⟩ .f32) (c : FVec Ideal ⟨2, ![1024, 64]⟩ .f32)
    (W : FVec Ideal ⟨2, ![3, 1088]⟩ .f32) (n : Fin 65536) (j : Fin 3) :
    units x c W (ix2 n j) = unitAt x c W n j := rfl

/-- The whole network: the projection plus the bias of the output unit. -/
def network (x : FVec Ideal ⟨2, ![65536, 64]⟩ .f32) (c : FVec Ideal ⟨2, ![1024, 64]⟩ .f32)
    (W : FVec Ideal ⟨2, ![3, 1088]⟩ .f32) (b : FVec Ideal ⟨1, ![3]⟩ .f32) : FVec Ideal ⟨2, ![65536, 3]⟩ .f32 :=
  fun i => unitAt x c W (i 0) (i 1) + b (ix1 (i 1))

theorem network_ix2 (x : FVec Ideal ⟨2, ![65536, 64]⟩ .f32) (c : FVec Ideal ⟨2, ![1024, 64]⟩ .f32)
    (W : FVec Ideal ⟨2, ![3, 1088]⟩ .f32) (b : FVec Ideal ⟨1, ![3]⟩ .f32) (n : Fin 65536) (j : Fin 3) :
    network x c W b (ix2 n j) = unitAt x c W n j + b (ix1 j) := rfl

/-- A sum over 1088 positions is the sum over the first 64 plus the sum over the other 1024. -/
theorem sum_split (f : Fin 1088 → EReal) :
    ∑ q : Fin 1088, f q = (∑ k : Fin 64, f ⟨k.val, by omega⟩) + ∑ m : Fin 1024, f ⟨64 + m.val, by omega⟩ :=
  Fin.sum_univ_add (a := 64) (b := 1024) f

end Cert.Rbfn

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibLaneSum.lean ====
/-
  The sum along the rows of a matrix, read at one row.

  A float `vector.multi_reduction <add>` of an `[a, b]` matrix over its SECOND axis (a lane sum: one number per row, the
  form `jnp.sum(x, axis=-1)` takes inside a kernel) is, at row `p` on the extended reals, the plain sum over the
  columns `k` of the entries `(p, k)`: the reduction's accumulator is the neutral element of the sum and contributes
  nothing, and the index the reduction inserts the column `k` into at row `p` is `(p, k)`.
-/
import Idealize.ShloMosaic.Lib.ValueIdx
import Idealize.ShloMosaic.PureOps.Ideal.Laws

noncomputable section

namespace Cert.LaneSum

open Idealize.ShloMosaic Idealize.ShloMosaic.ValueIdx

/-- Row `p` of the lane sum of an `[a, b]` matrix is `∑ k, src[p, k]`, for any float format and any witnesses of the
    reduction's side conditions. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

end Cert.LaneSum

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RbfBody.lean ====
/-
  What one grid point of the kernel computes, read at one entry of its output block.

  The body loads a block of 1024 data rows, all 1024 centres and the whole 3 × 1088 weight matrix, and stores one
  1024 × 3 block. Entry (p, j) of that block is the weight row j applied to data row p of the block followed by the
  row's 1024 Gaussian features: the first product contracts the data with the first 64 weight columns, the second
  contracts the features with the remaining 1024, and the two are added. Every rounding to bf16 is the identity on
  the extended reals; each matrix product into the zero accumulator is a plain sum; each lane sum of squares is a
  plain sum; the squared norms enter through a column kept per data row and a row kept per centre.
-/
import proofs.«157008_j25950192402607_1_alg».proof.Proof.Gen.KernelIdeal.Skeleton
import proofs.«157008_j25950192402607_1_alg».proof.Proof.RbfSpec
import proofs.«157008_j25950192402607_1_alg».proof.Proof.LibPlainProduct
import proofs.«157008_j25950192402607_1_alg».proof.Proof.LibLaneSum
import proofs.«157008_j25950192402607_1_alg».proof.Proof.LibColumnLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Rbfn

/-! ## The three matrix products, each read at an entry -/

/-- Data rows against transposed centres: entry (p, c) is `∑ k, l[p,k] · r[k,c]`. -/
theorem cross_entry (l : FVec Ideal S1024x64 .bf16) (r : FVec Ideal S64x1024 .bf16) (p : Fin 1024) (c : Fin 1024) :
    matmul dot_S1024x64_S64x1024_S1024x1024_1_0_0_1_n_n none l r (constant (F := Ideal) S1024x1024 .f32 0x00000000#32) (ix2 p c)
      = ∑ k : Fin 64, l (ix2 p k) * r (ix2 k c) :=
  Cert.PlainProduct.matmul_zero_entry dot_S1024x64_S64x1024_S1024x1024_1_0_0_1_n_n rfl rfl
    (fun j q => by
      unfold DotDims.lhsIdx
      rw [dif_neg (show ¬(0 : Fin S1024x64.rank) ∈ dot_S1024x64_S64x1024_S1024x1024_1_0_0_1_n_n.lhsBatch by decide),
        dif_pos (show (0 : Fin S1024x64.rank) ∈ dot_S1024x64_S64x1024_S1024x1024_1_0_0_1_n_n.lhsNonContracting by decide)]
      rfl)
    (fun j q => dot_S1024x64_S64x1024_S1024x1024_1_0_0_1_n_n.lhsIdx_val_of_single rfl j q)
    (fun j q => dot_S1024x64_S64x1024_S1024x1024_1_0_0_1_n_n.rhsIdx_val_of_single rfl j q)
    (fun j q => by
      unfold DotDims.rhsIdx
      rw [dif_neg (show ¬(1 : Fin S64x1024.rank) ∈ dot_S1024x64_S64x1024_S1024x1024_1_0_0_1_n_n.rhsBatch by decide),
        dif_pos (show (1 : Fin S64x1024.rank) ∈ dot_S1024x64_S64x1024_S1024x1024_1_0_0_1_n_n.rhsNonContracting by decide)]
      rfl)
    l r p c

/-- Data rows against the transposed first 64 weight columns. -/
theorem data_entry (l : FVec Ideal S1024x64 .bf16) (r : FVec Ideal S64x3 .bf16) (p : Fin 1024) (c : Fin 3) :
    matmul dot_S1024x64_S64x3_S1024x3_1_0_0_1_n_n none l r (constant (F := Ideal) S1024x3 .f32 0x00000000#32) (ix2 p c)
      = ∑ k : Fin 64, l (ix2 p k) * r (ix2 k c) :=
  Cert.PlainProduct.matmul_zero_entry dot_S1024x64_S64x3_S1024x3_1_0_0_1_n_n rfl rfl
    (fun j q => by
      unfold DotDims.lhsIdx
      rw [dif_neg (show ¬(0 : Fin S1024x64.rank) ∈ dot_S1024x64_S64x3_S1024x3_1_0_0_1_n_n.lhsBatch by decide),
        dif_pos (show (0 : Fin S1024x64.rank) ∈ dot_S1024x64_S64x3_S1024x3_1_0_0_1_n_n.lhsNonContracting by decide)]
      rfl)
    (fun j q => dot_S1024x64_S64x3_S1024x3_1_0_0_1_n_n.lhsIdx_val_of_single rfl j q)
    (fun j q => dot_S1024x64_S64x3_S1024x3_1_0_0_1_n_n.rhsIdx_val_of_single rfl j q)
    (fun j q => by
      unfold DotDims.rhsIdx
      rw [dif_neg (show ¬(1 : Fin S64x3.rank) ∈ dot_S1024x64_S64x3_S1024x3_1_0_0_1_n_n.rhsBatch by decide),
        dif_pos (show (1 : Fin S64x3.rank) ∈ dot_S1024x64_S64x3_S1024x3_1_0_0_1_n_n.rhsNonContracting by decide)]
      rfl)
    l r p c

/-- Feature rows against the transposed last 1024 weight columns. -/
theorem feature_entry (l : FVec Ideal S1024x1024 .bf16) (r : FVec Ideal S1024x3 .bf16) (p : Fin 1024) (c : Fin 3) :
    matmul dot_S1024x1024_S1024x3_S1024x3_1_0_0_1_n_n none l r (constant (F := Ideal) S1024x3 .f32 0x00000000#32) (ix2 p c)
      = ∑ k : Fin 1024, l (ix2 p k) * r (ix2 k c) :=
  Cert.PlainProduct.matmul_zero_entry dot_S1024x1024_S1024x3_S1024x3_1_0_0_1_n_n rfl rfl
    (fun j q => by
      unfold DotDims.lhsIdx
      rw [dif_neg (show ¬(0 : Fin S1024x1024.rank) ∈ dot_S1024x1024_S1024x3_S1024x3_1_0_0_1_n_n.lhsBatch by decide),
        dif_pos (show (0 : Fin S1024x1024.rank) ∈ dot_S1024x1024_S1024x3_S1024x3_1_0_0_1_n_n.lhsNonContracting by decide)]
      rfl)
    (fun j q => dot_S1024x1024_S1024x3_S1024x3_1_0_0_1_n_n.lhsIdx_val_of_single rfl j q)
    (fun j q => dot_S1024x1024_S1024x3_S1024x3_1_0_0_1_n_n.rhsIdx_val_of_single rfl j q)
    (fun j q => by
      unfold DotDims.rhsIdx
      rw [dif_neg (show ¬(1 : Fin S1024x3.rank) ∈ dot_S1024x1024_S1024x3_S1024x3_1_0_0_1_n_n.rhsBatch by decide),
        dif_pos (show (1 : Fin S1024x3.rank) ∈ dot_S1024x1024_S1024x3_S1024x3_1_0_0_1_n_n.rhsNonContracting by decide)]
      rfl)
    l r p c

/-! ## The squared norms, as they are spread over the 1024 × 1024 block -/

/-- The data rows' sums of squares, kept as a column and repeated across the columns: at (p, c) it is `∑ k, y[p,k]²`. -/
theorem sqnorm_col (y : FVec Ideal S1024x64 .f32) (hφ : FKind.Formats FTy.f32)
    (hacc : (0x00000000#32 : BitVec FTy.f32.bits) = FKind.add.neutral .f32 hφ) (p c : Fin 1024) :
    broadcastTo S1024x1024 (shapeCast S1024x1 (multiReduction .add [1] S1024 (mulf y y) 0x00000000#32
        reduces_S1024x64_S1024 hφ hacc) shapeCasts_S1024_S1024x1) broadcasts_S1024x1_S1024x1024 (ix2 p c)
      = ∑ k : Fin 64, y (ix2 p k) * y (ix2 p k) :=
  (Cert.ColumnLayout.broadcastTo_a1_ab_apply _ _ p c).trans
    ((Cert.ColumnLayout.shapeCast_a_a1_apply _ _ p 0).trans
      (Cert.LaneSum.multiReduction_add_rows (mulf y y) _ _ hφ hacc p))

/-- The centres' sums of squares, kept as a row and repeated down the rows: at (p, c) it is `∑ k, y[c,k]²`. -/
theorem sqnorm_row (y : FVec Ideal S1024x64 .f32) (hφ : FKind.Formats FTy.f32)
    (hacc : (0x00000000#32 : BitVec FTy.f32.bits) = FKind.add.neutral .f32 hφ) (p c : Fin 1024) :
    broadcastTo S1024x1024 (shapeCast S1x1024 (multiReduction .add [1] S1024 (mulf y y) 0x00000000#32
        reduces_S1024x64_S1024 hφ hacc) shapeCasts_S1024_S1x1024) broadcasts_S1x1024_S1024x1024 (ix2 p c)
      = ∑ k : Fin 64, y (ix2 c k) * y (ix2 c k) :=
  (broadcastTo_1b_ab_apply _ _ p c).trans
    ((shapeCast_a_1a_apply _ _ 0 c).trans
      (Cert.LaneSum.multiReduction_add_rows (mulf y y) _ _ hφ hacc c))

/-! ## The stored value at an entry -/

/-- Entry (p, j) of the block the body stores is weight row j applied to the block's data row p and its features. -/
theorem stored_apply (x0 : Vec Ideal S1024x64 .f32) (x1 : Vec Ideal S1024x64 .f32) (x2 : Vec Ideal S3x1088 .f32)
    (p : Fin 1024) (j : Fin 3) :
    k0_pay1 (F := Ideal) x0 x1 x2 (ix2 p j) = project (fun k => x0 (ix2 p k)) x1 (fun q => x2 (ix2 j q)) := by
  unfold k0_pay1 project
  dsimp only
  refine (addf_apply _ _ _).trans (congrArg₂ (· + ·) ?_ ?_)
  · -- the data against the first 64 weight columns
    refine (data_entry _ _ p j).trans (Finset.sum_congr rfl fun k _ => congrArg₂ (· * ·) rfl ?_)
    exact (transpose_ix2_apply _ _ k j).trans (slice2_axis1_apply 0 x2 slices_S3x1088_o0_0_S3x64 j k ⟨k.val, by omega⟩ (by simp))
  · -- the features against the last 1024 weight columns
    refine (feature_entry _ _ p j).trans (Finset.sum_congr rfl fun c _ => congrArg₂ (· * ·) ?_ ?_)
    · unfold feature
      refine congrArg Ideal.exp ?_
      refine (mulf_apply _ _ _).trans (congrArg₂ (· * ·) rfl ?_)
      refine (subf_apply _ _ _).trans (congrArg₂ (· - ·) ?_ ?_)
      · exact (addf_apply _ _ _).trans (congrArg₂ (· + ·) (sqnorm_col x0 _ _ p c) (sqnorm_row x1 _ _ p c))
      · refine (mulf_apply _ _ _).trans (congrArg₂ (· * ·) rfl ?_)
        exact (cross_entry _ _ p c).trans
          (Finset.sum_congr rfl fun k _ => congrArg₂ (· * ·) rfl (transpose_ix2_apply _ _ k c))
    · exact (transpose_ix2_apply _ _ c j).trans (slice2_axis1_apply 64 x2 slices_S3x1088_o0_64_S3x1024 j c ⟨64 + c.val, by omega⟩ rfl)

end Cert.KernelIdeal.Body

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.RbfBlocks.lean ====
/-
  From the blocks the kernel writes to the whole result of its program.

  The grid has 64 points. Point t loads data rows 1024·t … 1024·t + 1023, every centre and the whole weight matrix
  (the centres' and the weights' blocks are the whole arrays at every point), and writes back rows
  1024·t … 1024·t + 1023 of the 65536 × 3 output array. What it writes at block entry (p, j) is the weight row j applied
  to data row 1024·t + p and that row's features — the projection array of the specification read through the
  block. Row r of the output array lies in the block of point r / 1024, so the blocks cover the array and it ends
  holding the projection of every data row. The program then adds, on the host, the bias repeated down the rows:
  the result buffer ends at the network of the four argument arrays.
-/
import proofs.«157008_j25950192402607_1_alg».proof.Proof.Gen.KernelIdeal.Frame
import proofs.«157008_j25950192402607_1_alg».proof.Proof.RbfBody
import proofs.«157008_j25950192402607_1_alg».proof.Proof.LibHostLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Net

open Cert.KernelIdeal Cert.KernelIdeal.Gen Cert.KernelIdeal.Body Idealize.ShloMosaic.ValueIdx Cert.Rbfn

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the data's and the output's blocks are number t along the rows, the
    centres' and the weights' blocks are the one block their arrays consist of. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as rows of the argument arrays -/

/-- Row p of the data block at point t is row `1024·t + p` of the data array. -/
theorem data_block (c : Dev nD) (t : Fin cfg0.N) (p : Fin 1024) (k : Fin 64) (n : Fin 65536) (hn : n.val = t.val * 1024 + p.val) :
    (iblk m c 0 t : Vec Ideal S1024x64 .f32) (ix2 p k) = (V m c main_arg0 : S65536x64.Idx → Elt Ideal .f32) (ix2 n k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = n.val; rw [e0, hn]; omega
  | ⟨1, _⟩ => show win0_0.index t (1 : Fin 2) * 64 + 1 * k.val = k.val; rw [e1]; omega

/-- The centres' block is the centres' array, at every point. -/
theorem centres_block (c : Dev nD) (t : Fin cfg0.N) :
    (iblk m c 1 t : Vec Ideal S1024x64 .f32) = (V m c main_arg1 : S1024x64.Idx → Elt Ideal .f32) := by
  obtain ⟨-, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 64 + 1 * (y 1).val = (y 1).val; rw [e1]; omega

/-- The weights' block is the weight matrix, at every point. -/
theorem weights_block (c : Dev nD) (t : Fin cfg0.N) :
    (iblk m c 2 t : Vec Ideal S3x1088 .f32) = (V m c main_arg2 : S3x1088.Idx → Elt Ideal .f32) := by
  obtain ⟨-, -, -, -, e0, e1, -⟩ := idx_facts t
  funext y
  unfold iblk
  rw [View.read_apply]
  show V m c main_arg2 _ = V m c main_arg2 _
  congr 1
  funext a
  apply Fin.ext
  match a with
  | ⟨0, _⟩ => show win0_2.index t (0 : Fin 2) * 3 + 1 * (y 0).val = (y 0).val; rw [e0]; omega
  | ⟨1, _⟩ => show win0_2.index t (1 : Fin 2) * 1088 + 1 * (y 1).val = (y 1).val; rw [e1]; omega

/-! ## What a point writes back, and the array after all points -/

/-- What point t writes back is the projection array read through the point's block: entry (p, j) of the block is
    the projection of data row `1024·t + p` on output unit j. -/
theorem written_block (c : Dev nD) (t : Fin cfg0.N) (_ : (cfg0.win 3).flush t = true) :
    (dats m 0 c).flushed 3 t = ((cfg0.win 3).blk t).view.read (Elt Ideal)
      (units (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S1024x64) hz, View.ld_unit_zero (S := S3x1088) hz]
  funext y
  obtain ⟨p, j, rfl⟩ : ∃ (p : Fin 1024) (j : Fin 3), y = ix2 p j := ⟨y 0, y 1, eq_ix2 y⟩
  have ht : t.val < 64 := lt_of_lt_of_eq t.isLt N_0
  obtain ⟨-, -, -, -, -, -, e0, e1⟩ := idx_facts t
  let n : Fin 65536 := ⟨t.val * 1024 + p.val, by omega⟩
  have he : ((cfg0.win 3).blk t).view.emb (ix2 p j) = ix2 n j := by
    funext a
    apply Fin.ext
    match a with
    | ⟨0, _⟩ => show win0_3.index t (0 : Fin 2) * 1024 + 1 * p.val = t.val * 1024 + p.val; rw [e0]; omega
    | ⟨1, _⟩ => show win0_3.index t (1 : Fin 2) * 3 + 1 * j.val = j.val; rw [e1]; omega
  show k0_pay1 (iblk m c 0 t) (iblk m c 1 t) (iblk m c 2 t) (ix2 p j)
    = units (V m c main_arg0) (V m c main_arg1) (V m c main_arg2) (((cfg0.win 3).blk t).view.emb (ix2 p j))
  rw [he, units_ix2]
  refine (stored_apply _ _ _ p j).trans ?_
  unfold unitAt
  have ed : (fun k => (iblk m c 0 t : Vec Ideal S1024x64 .f32) (ix2 p k))
      = fun k => (V m c main_arg0 : S65536x64.Idx → Elt Ideal .f32) (ix2 n k) :=
    funext fun k => data_block m c t p k n rfl
  rw [ed, centres_block, weights_block]

/-- An index of the output array is in point t's block iff each coordinate is in the block's range on its axis. -/
theorem mem_block (t : Fin cfg0.N) (i : S65536x3.Idx) :
    i ∈ ((cfg0.win 3).blk t).view.set ↔ ∀ a : Fin 2, win0_3.index t a * S1024x3.size a ≤ (i a).val ∧ (i a).val < win0_3.index t a * S1024x3.size a + S1024x3.size a := by
  show i ∈ ((View.whole main_v0).slice (win0_3.rect t)).set ↔ _
  rw [View.set_slice_whole, Rect.mem_set_unit]
  exact Iff.rfl

/-- Row r of the output array is written by point `r / 1024`: the blocks cover the array. -/
theorem covered (i : S65536x3.Idx) :
    ∃ t : Fin cfg0.N, (cfg0.win 3).flush t = true ∧ i ∈ ((cfg0.win 3).blk t).view.set := by
  have hi0 : (i 0).val < 65536 := (i 0).isLt
  have hi1 : (i 1).val < 3 := (i 1).isLt
  let t : Fin cfg0.N := ⟨(i 0).val / 1024, by rw [show cfg0.N = 64 from N_0]; omega⟩
  obtain ⟨-, -, -, -, -, -, e0, e1⟩ := idx_facts t
  have e0' : win0_3.index t (0 : Fin 2) = (i 0).val / 1024 := e0
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 3 ≤ (i 1).val ∧ (i 1).val < win0_3.index t (1 : Fin 2) * 3 + 3; omega

/-- After the last point the output array holds the projection of every data row. -/
theorem final_units (c : Dev nD) :
    (dats m 0 c).arrAt 3 cfg0.N = units (V m c main_arg0) (V m c main_arg1) (V m c main_arg2) :=
  (dats m 0 c).arrAt_eq_of_cover 3 _ (written_block m c) covered

/-! ## The host's addition of the bias, and the run -/

/-- The result buffer after the host lines that follow the kernel: the projection array plus the bias placed as a
    row and repeated down the 65536 rows, which at (n, j) is the projection plus `b[j]`. -/
theorem result_eq (c : Dev nD) :
    Pipeline.afterTail₀ cfgs (dats m) 0 (V0 m) [hostOps1] c main_v3
      = network (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have hu : Pipeline.withArrays (cfgs 0).spec c (V0 m c) (fun w => (dats m 0 c).arrAt w (cfgs 0).N) (Proc.devRef .tc main_v0)
      = units (m ((c : Thread nD τ).loc main_arg0)) (m ((c : Thread nD τ).loc main_arg1)) (m ((c : Thread nD τ).loc main_arg2)) :=
    (Pipeline.withArrays_arr spec0 launch0.win.arr_inj c _ _ 3).trans (final_units m c)
  have hb : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [hu, hb]
  funext i
  obtain ⟨n, j, rfl⟩ : ∃ (n : Fin 65536) (j : Fin 3), i = ix2 n j := ⟨i 0, i 1, eq_ix2 i⟩
  rw [network_ix2]
  refine (addf_apply _ _ _).trans (congrArg₂ (· + ·) (units_ix2 _ _ _ n j) ?_)
  exact (Cert.HostLayout.broadcastInDim_1b_ab_apply _ _ n j).trans (Cert.HostLayout.broadcastInDim_b_1b_apply _ _ 0 j)

/-- The kernel program's run, read: every weakly fair execution terminates with the result buffer at the network of
    the argument arrays, which end unchanged. -/
theorem run : θ_run defs (onTc (τ := τ) (main (F := Ideal))) ⟨m, fun _ => 0, ρ⟩ fun r => ∀ c : Dev nD,
      r.2.mem ((c.tc : Thread nD τ).loc main_v3)
          = network (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Net

end
-- ==== Proof.LibConcatCols.lean ====
/-
  Two matrices with the same number of rows laid side by side, read at one entry.

  Joining an [n, a] matrix and an [n, b] matrix along their columns gives an [n, c] matrix whose first a columns are the
  first matrix and whose remaining columns are the second: entry (p, q) is the first matrix's entry (p, q) when q < a, and
  the second matrix's entry (p, q - a) otherwise. Both readings are stated with the piece's own column q' and the
  arithmetic relation between q' and q, so that a caller names the column it wants and proves the relation.
-/
import Idealize.ShloMosaic.Lib.Pipeline.Value
import Idealize.ShloMosaic.Lib.ValueIdx

namespace Cert.ConcatCols

open Idealize.ShloMosaic Idealize.ShloMosaic.ValueIdx

variable {α : Type} {n a b c : Nat}

/-- A column q of the joined matrix that is column q' of the first piece (q' = q) reads the first piece. -/
theorem concat_cols_left (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin a)
    (hq : q'.val = q.val) :
    concatenate ⟨2, ![n, c]⟩ 1 [⟨⟨2, ![n, a]⟩, x⟩, ⟨⟨2, ![n, b]⟩, y⟩] h (ix2 p q) = x (ix2 p q') :=
  concatenate_pair_apply_left 1 x y h (ix2 p q) rfl (ix2 p q') fun ax =>
    match ax with
    | ⟨0, _⟩ => rfl
    | ⟨1, _⟩ => hq

/-- A column q of the joined matrix that lies a columns past column q' of the second piece (q' + a = q) reads the
    second piece. -/
theorem concat_cols_right (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin b)
    (hq : q'.val + a = q.val) :
    concatenate ⟨2, ![n, c]⟩ 1 [⟨⟨2, ![n, a]⟩, x⟩, ⟨⟨2, ![n, b]⟩, y⟩] h (ix2 p q) = y (ix2 p q') :=
  concatenate_pair_apply_right 1 x y h (ix2 p q) rfl rfl (ix2 p q')
    (fun ax hax =>
      match ax, hax with
      | ⟨0, _⟩, _ => rfl
      | ⟨1, _⟩, hax => absurd rfl hax)
    hq

end Cert.ConcatCols
-- ==== Proof.RbfReference.lean ====
/-
  The reference program, read as the network of the specification.

  The reference forms, for every data row, the 1088-long row "data followed by features" and contracts it with the
  transposed weight matrix in one product. Read at an entry, that product is a sum over 1088 positions; cut after the
  first 64 it is the data's part plus the features' part, which is the specification's form. The features themselves
  are the same expanded squared distance, with each sum of squares started from the zero word (which is the real 0).
-/
import proofs.«157008_j25950192402607_1_alg».proof.Proof.Gen.ReferenceIdeal.Read
import proofs.«157008_j25950192402607_1_alg».proof.Proof.RbfSpec
import proofs.«157008_j25950192402607_1_alg».proof.Proof.LibConcatCols

noncomputable section

namespace Cert.ReferenceIdeal.Net

open Cert.ReferenceIdeal Cert.ReferenceIdeal.Gen Cert.ReferenceIdeal.Read Idealize.ShloMosaic Idealize.ShloMosaic.ValueIdx Cert.Rbfn

/-- The reference's feature array at (n, c) is the specification's feature of data row n against centre c. -/
theorem feature_apply (x0 : FVec Ideal S65536x64 .f32) (x1 : FVec Ideal S1024x64 .f32) (n : Fin 65536) (c : Fin 1024) :
    val_main_v16 (F := Ideal) x0 x1 (ix2 n c) = feature (fun k => x0 (ix2 n k)) (fun k => x1 (ix2 c k)) := by
  have e1 : ∀ k : Fin 64, idx_main_v1 (idx_main_v2 (idx_main_v6 (ix2 n c))) k = ix2 n k := fun k =>
    funext fun a => Fin.ext (by match a with | ⟨0, _⟩ => rfl | ⟨1, _⟩ => rfl)
  have e2 : ∀ k : Fin 64, idx_main_v4 (idx_main_v5 (idx_main_v7 (ix2 n c))) k = ix2 c k := fun k =>
    funext fun a => Fin.ext (by match a with | ⟨0, _⟩ => rfl | ⟨1, _⟩ => rfl)
  have e3 : ∀ k : Fin 64, lidx_main_v10 (ix2 n c) k = ix2 n k := fun k =>
    funext fun a => Fin.ext (by match a with | ⟨0, _⟩ => rfl | ⟨1, _⟩ => rfl)
  have e4 : ∀ k : Fin 64, idx_main_v9 (ridx_main_v10 (ix2 n c) k) = ix2 c k := fun k =>
    funext fun a => Fin.ext (by match a with | ⟨0, _⟩ => rfl | ⟨1, _⟩ => rfl)
  rw [val_main_v16_apply, val_main_v15_apply, val_main_v14_apply, val_main_cst_2_apply, val_main_v13_apply, val_main_v8_apply,
    val_main_v6_apply, val_main_v2_apply, val_main_v1_apply, val_main_v7_apply, val_main_v5_apply, val_main_v4_apply,
    val_main_v12_apply, val_main_v11_apply, val_main_cst_1_apply, val_main_v10_apply, val_main_cst_apply, val_main_cst_0_apply]
  simp only [e1, e2, e3, e4, val_main_v0_apply, val_main_v3_apply, val_main_v9_apply, Ideal.hostUnary_exp_def, Ideal.mulf_def,
    Ideal.subf_def, Ideal.addf_def, Ideal.ofBits_def, Ideal.ofBits_zero_f32, zero_add]
  rfl

/-- The reference's one product, at (n, j), is weight row j applied to data row n and its features. -/
theorem units_eq (x0 : FVec Ideal S65536x64 .f32) (x1 : FVec Ideal S1024x64 .f32) (x2 : FVec Ideal S3x1088 .f32) :
    val_main_v19 (F := Ideal) x0 x1 x2 = units x0 x1 x2 := by
  funext i
  obtain ⟨n, j, rfl⟩ : ∃ (n : Fin 65536) (j : Fin 3), i = ix2 n j := ⟨i 0, i 1, eq_ix2 i⟩
  rw [val_main_v19_apply, units_ix2, sum_split]
  unfold unitAt project
  have el : ∀ q : Fin 1088, lidx_main_v19 (ix2 n j) q = ix2 n q := fun q =>
    funext fun a => Fin.ext (by match a with | ⟨0, _⟩ => rfl | ⟨1, _⟩ => rfl)
  have er : ∀ q : Fin 1088, idx_main_v18 (ridx_main_v19 (ix2 n j) q) = ix2 j q := fun q =>
    funext fun a => Fin.ext (by match a with | ⟨0, _⟩ => rfl | ⟨1, _⟩ => rfl)
  refine congrArg₂ (· + ·) (Finset.sum_congr rfl fun k _ => ?_) (Finset.sum_congr rfl fun c _ => ?_)
  · -- a position among the first 64 reads the data row
    rw [el, val_main_v18_apply, er]
    refine congrArg₂ (· * ·) ?_ rfl
    unfold val_main_v17
    exact Cert.ConcatCols.concat_cols_left x0 _ _ n ⟨k.val, by omega⟩ k rfl
  · -- a position past the first 64 reads the feature against centre c
    rw [el, val_main_v18_apply, er]
    refine congrArg₂ (· * ·) ?_ rfl
    unfold val_main_v17
    exact (Cert.ConcatCols.concat_cols_right x0 _ _ n ⟨64 + c.val, by omega⟩ c (Nat.add_comm _ _)).trans
      (feature_apply x0 x1 n c)

/-- The reference's result is the network: the product plus the bias of the output unit. -/
theorem network_eq (x0 : FVec Ideal S65536x64 .f32) (x1 : FVec Ideal S1024x64 .f32) (x2 : FVec Ideal S3x1088 .f32)
    (x3 : FVec Ideal S3 .f32) :
    val_main_v22 (F := Ideal) x0 x1 x2 x3 = network x0 x1 x2 x3 := by
  funext i
  obtain ⟨n, j, rfl⟩ : ∃ (n : Fin 65536) (j : Fin 3), i = ix2 n j := ⟨i 0, i 1, eq_ix2 i⟩
  rw [val_main_v22_apply, units_eq, units_ix2, val_main_v21_apply, val_main_v20_apply, network_ix2]
  exact congrArg (unitAt x0 x1 x2 n j + ·) (congrArg x3 (funext fun a => Fin.ext (by match a with | ⟨0, _⟩ => rfl)))

end Cert.ReferenceIdeal.Net

end
-- ==== Proof.lean ====
/-
  The radial-basis network computed block by block equals the one computed at once, on the extended reals.

  The kernel program projects each block of 1024 data rows in two parts — the data against the first 64 weight
  columns, the 1024 Gaussian features against the remaining 1024 — adds the parts, and adds the bias on the host.
  The reference joins data and features into rows of length 1088 and contracts them with the weight matrix in one
  product before adding the bias. Both form the features from the same expanded squared distance with the same two
  literals, and a bf16 rounding is the identity on the extended reals, so the two results differ only in how one
  sum of 1088 terms is grouped: the sum over the first 64 positions plus the sum over the other 1024. Addition of
  extended reals is commutative and associative, so the equality holds for all inputs and the hypothesis that the
  inputs are finite is not used.

  Proof/RbfSpec.lean states the network as one function of the four argument arrays; Proof/RbfBody.lean reads one entry
  of the block a grid point stores; Proof/RbfBlocks.lean assembles the blocks into the output array, adds the bias and
  states the kernel program's run; Proof/RbfReference.lean reads the reference program's result as the same network.
  The three frame claims are the programs' runs with the results dropped; no operation was rewritten by the
  idealization, so there is nothing to preserve.
-/
import proofs.«157008_j25950192402607_1_alg».proof.Defs
import proofs.«157008_j25950192402607_1_alg».proof.Proof.Gen.Kernel
import proofs.«157008_j25950192402607_1_alg».proof.Proof.Gen.Kernel.Skeleton
import proofs.«157008_j25950192402607_1_alg».proof.Proof.Gen.Kernel.Launch
import proofs.«157008_j25950192402607_1_alg».proof.Proof.Gen.Kernel.Points
import proofs.«157008_j25950192402607_1_alg».proof.Proof.Gen.Kernel.Frame
import proofs.«157008_j25950192402607_1_alg».proof.Proof.Gen.KernelIdeal
import proofs.«157008_j25950192402607_1_alg».proof.Proof.Gen.KernelIdeal.Skeleton
import proofs.«157008_j25950192402607_1_alg».proof.Proof.Gen.KernelIdeal.Launch
import proofs.«157008_j25950192402607_1_alg».proof.Proof.Gen.KernelIdeal.Points
import proofs.«157008_j25950192402607_1_alg».proof.Proof.Gen.KernelIdeal.Frame
import proofs.«157008_j25950192402607_1_alg».proof.Proof.Gen.ReferenceIdeal
import proofs.«157008_j25950192402607_1_alg».proof.Proof.Gen.Pre_finite_inputs
import proofs.«157008_j25950192402607_1_alg».proof.Proof.Gen.ReferenceIdeal.Run
import proofs.«157008_j25950192402607_1_alg».proof.Proof.Gen.ReferenceIdeal.Read
import proofs.«157008_j25950192402607_1_alg».proof.Proof.RbfBlocks
import proofs.«157008_j25950192402607_1_alg».proof.Proof.RbfReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the result buffer at the network of those
    arguments: the kernel program block by block and in two partial products, the reference in one product over the
    joined rows. -/
theorem algebraic : Cert.algebraic_KernelIdeal_ReferenceIdeal := by
  intro m ρ m' ρ' _ hagree
  refine ⟨fun c => Cert.Rbfn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _).trans ?_
  rw [Cert.ReferenceIdeal.Net.network_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
